-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x1x2048x2048 : Shape := ⟨4, ![2, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x1x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i32⟩
  | .hbm, ⟨4, _⟩ => ⟨S2x16x2048x64, .bf16⟩
  | .hbm, ⟨5, _⟩ => ⟨S2x16x2048x64, .bf16⟩
  | .hbm, ⟨6, _⟩ => ⟨S2x16x2048x64, .f32⟩
  | .hbm, ⟨7, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x2048x64, .bf16⟩
  | .local _ .vmem, ⟨5, _⟩ => ⟨S1x1x2048x64, .bf16⟩
  | .local _ .vmem, ⟨6, _⟩ => ⟨S1x1x512x2048, .i32⟩
  | .local _ .vmem, ⟨7, _⟩ => ⟨S1x1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bitsLt_bf16_f32 : FTy.bits .bf16 < FTy.bits .f32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .bf16 = 32 ∨ (Rect.block (s := S2x16x2048x64) S1x1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .bf16 = 32 ∨ (Rect.block (s := S2x16x2048x64) S1x1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x1x2048x2048.size a
  hwx0_3 : ∀ i : grid0.Coords, EltTy.bits .i32 = 32 ∨ (Rect.block (s := S2x1x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x16x2048x2048.size a
  hwx0_5 : ∀ i : grid0.Coords, EltTy.bits .f32 = 32 ∨ (Rect.block (s := S2x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x1x2048x2048 : Shape := ⟨4, ![2, 1, 2048, 2048]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x16x2048x2048, .f32⟩
  | .hbm, ⟨9, _⟩ => ⟨S2x16x2048x2048, .f32⟩
  | .hbm, ⟨10, _⟩ => ⟨S2x16x2048x2048, .f32⟩
  | .hbm, ⟨11, _⟩ => ⟨S_, .i32⟩
  | .hbm, ⟨12, _⟩ => ⟨S2x1x2048x2048, .i32⟩
  | .hbm, ⟨13, _⟩ => ⟨S2x1x2048x2048, .i1⟩
  | .hbm, ⟨14, _⟩ => ⟨S_, .f32⟩
  | .hbm, ⟨15, _⟩ => ⟨S2x16x2048x2048, .i1⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S_, .f32⟩
  | .hbm, ⟨21, _⟩ => ⟨S2x16x2048, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.AttnSpec.lean ====
/-
  Scaled dot-product attention with a mask, as one function of the four argument arrays, on the extended reals.

  For a batch b, a head h and a query row r the masked score of key column c is
      s(c) = -10000                                   where the mask entry (b, 0, r, c) is zero,
      s(c) = (Σ_d q(b,h,r,d) · k(b,h,c,d)) · 1/8      elsewhere,
  the row's probabilities are the softmax taken in the stable way,
      p(c) = exp (s(c) - max_c' s(c')) / Σ_c' exp (s(c') - max_c'' s(c'')),
  and the output row is Σ_c p(c) · v(b,h,c,d). Both programs compute exactly this; they differ in WHERE the factor
  1/8 = 1/√64 enters: one scales every query entry before the inner product, the other scales the inner product.
  A nonnegative finite factor moves out of a finite sum of extended reals whatever the terms are (no finiteness of
  q or k is needed: multiplication by such a factor is additive on all of [-∞, +∞]), which is the one law between
  the two forms (`sum_scaled_left`).
-/
import Idealize.ShloMosaic.PureOps.Ideal
import Idealize.ShloMosaic.Lib.ValueIdx

noncomputable section

open scoped BigOperators

namespace Cert.Attn

open Idealize.ShloMosaic Idealize.ShloMosaic.ValueIdx

/-! ## The scale -/

/-- A nonnegative finite factor moves out of a finite sum of extended reals. -/
theorem sum_mul_const {ι : Type} (s : Finset ι) (f : ι → EReal) {c : EReal} (h0 : 0 ≤ c) (ht : c ≠ ⊤) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top h0 ht]

/-- Scaling the left factor of every product of an inner product scales the inner product. -/
theorem sum_scaled_left {n : ℕ} (x y : Fin n → EReal) {c : EReal} (h0 : 0 ≤ c) (ht : c ≠ ⊤) :
    ∑ d : Fin n, (x d * c) * y d = (∑ d : Fin n, x d * y d) * c := by
  rw [← sum_mul_const _ _ h0 ht]
  exact Finset.sum_congr rfl fun d _ => mul_right_comm _ _ _

/-- The pattern of 0.125 denotes the real 1/8. -/
theorem eighth : Ideal.ofBits .f32 0x3E000000#32 = ((1 / 8 : ℝ) : EReal) := by
  simp [Ideal.ofBits, Ideal.ieee, -EReal.coe_mul]; norm_num

theorem eighth_nonneg : (0 : EReal) ≤ Ideal.ofBits .f32 0x3E000000#32 := by
  rw [eighth]; exact_mod_cast (by norm_num : (0 : ℝ) ≤ 1 / 8)

theorem eighth_ne_top : Ideal.ofBits .f32 0x3E000000#32 ≠ ⊤ := by
  rw [eighth]; exact EReal.coe_ne_top _

/-- The pattern of 64.0 denotes the real 64, and that of 1.0 the real 1. -/
theorem sixtyfour : Ideal.ofBits .f32 0x42800000#32 = ((64 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

/-- One over the square root of 64 is the eighth: √64 = 8 exactly, so the quotient the one program computes is the
    literal the other spells. -/
theorem one_div_sqrt_64 :
    Ideal.div (Ideal.ofBits .f32 0x3F800000#32) (Ideal.sqrt (Ideal.ofBits .f32 0x42800000#32)) = Ideal.ofBits .f32 0x3E000000#32 := by
  have h8 : Real.sqrt 64 = 8 := by
    rw [show (64 : ℝ) = 8 ^ 2 by norm_num]; exact Real.sqrt_sq (by norm_num)
  have hs : Ideal.sqrt ((64 : ℝ) : EReal) = ((8 : ℝ) : EReal) := by
    show (if (64 : ℝ) < 0 then ⊥ else (Real.sqrt 64 : EReal)) = _
    rw [if_neg (by norm_num), h8]
  rw [sixtyfour, hs, one, eighth, Ideal.div_coe (by norm_num : (8 : ℝ) ≠ 0)]
  rw [← EReal.coe_mul]; congr 1; norm_num

/-! ## Attention of one row of scores -/

/-- The largest score of a row. -/
def rowMax (s : Fin 2048 → EReal) : EReal := (Finset.univ : Finset (Fin 2048)).fold max ⊥ s

/-- The unnormalized weight of column `c`. -/
def weight (s : Fin 2048 → EReal) (c : Fin 2048) : EReal := Ideal.exp (s c - rowMax s)

/-- The probability of column `c`: its weight over the row's total weight. -/
def prob (s : Fin 2048 → EReal) (c : Fin 2048) : EReal := Ideal.div (weight s c) (∑ c' : Fin 2048, weight s c')

/-! ## The two spellings of the masked score, and the two results -/

/-- The masked score with the inner product scaled as a whole. -/
def score (q k : (⟨4, ![2, 16, 2048, 64]⟩ : Shape).Idx → EReal) (mask : (⟨4, ![2, 1, 2048, 2048]⟩ : Shape).Idx → BitVec 32)
    (b : Fin 2) (h : Fin 16) (r c : Fin 2048) : EReal :=
  Scalar.select (IntOp.cmpi .eq (mask (ix4 b (0 : Fin 1) r c)) 0#32) (Ideal.ofBits .f32 0xC61C4000#32)
    ((∑ d : Fin 64, q (ix4 b h r d) * k (ix4 b h c d)) * Ideal.ofBits .f32 0x3E000000#32)

/-- The masked score with every query entry scaled first. -/
def scoreQ (q k : (⟨4, ![2, 16, 2048, 64]⟩ : Shape).Idx → EReal) (mask : (⟨4, ![2, 1, 2048, 2048]⟩ : Shape).Idx → BitVec 32)
    (b : Fin 2) (h : Fin 16) (r c : Fin 2048) : EReal :=
  Scalar.select (IntOp.cmpi .eq (mask (ix4 b (0 : Fin 1) r c)) 0#32) (Ideal.ofBits .f32 0xC61C4000#32)
    (∑ d : Fin 64, (q (ix4 b h r d) * Ideal.ofBits .f32 0x3E000000#32) * k (ix4 b h c d))

/-- The two spellings are one function. -/
theorem scoreQ_eq_score : scoreQ = score := by
  funext q k mask b h r c
  unfold scoreQ score
  rw [sum_scaled_left (fun d => q (ix4 b h r d)) (fun d => k (ix4 b h c d)) eighth_nonneg eighth_ne_top]

/-- The attention probabilities, [2, 16, 2048, 2048]. -/
def attn (q k : (⟨4, ![2, 16, 2048, 64]⟩ : Shape).Idx → EReal) (mask : (⟨4, ![2, 1, 2048, 2048]⟩ : Shape).Idx → BitVec 32) :
    (⟨4, ![2, 16, 2048, 2048]⟩ : Shape).Idx → EReal :=
  fun i => prob (score q k mask (i 0) (i 1) (i 2)) (i 3)

/-- The attention output, [2, 16, 2048, 64]. -/
def out (q k v : (⟨4, ![2, 16, 2048, 64]⟩ : Shape).Idx → EReal) (mask : (⟨4, ![2, 1, 2048, 2048]⟩ : Shape).Idx → BitVec 32) :
    (⟨4, ![2, 16, 2048, 64]⟩ : Shape).Idx → EReal :=
  fun i => ∑ c : Fin 2048, prob (score q k mask (i 0) (i 1) (i 2)) c * v (ix4 (i 0) (i 1) c (i 3))

end Cert.Attn

end
-- ==== Proof.LibLane.lean ====
/- A lane sum read at a row: the float add-reduction of an [a, b] vector over its second axis, from the zero
   accumulator, is at the extended reals the plain sum over the lane of the row's entries. -/
import Idealize.ShloMosaic.PureOps.Ideal.Laws
import Idealize.ShloMosaic.Lib.ValueIdx
import Idealize.ShloMosaic.Lib.ValueLayout
import Idealize.ShloMosaic.Lib.Pipeline.Value

noncomputable section
namespace Cert.LibLane
open Idealize.ShloMosaic Idealize.ShloMosaic.ValueIdx

/-- A lane sum of an [a, b] vector (a float `multi_reduction <add>` over axis 1 from the zero accumulator) read at
    row `r`, at the extended reals: the sum over the lane `j` of the entries `(r, j)`. -/
theorem laneSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ j : Fin b, src (ix2 r j) := by
  refine (Ideal.multiReduction_add_single src 0x00000000#32 h hφ hacc (ix1 r)).trans ?_
  refine Finset.sum_congr rfl fun j _ => congrArg src ?_
  funext d
  match d with
  | ⟨0, _⟩ => rfl
  | ⟨1, _⟩ => rfl

end Cert.LibLane
end
-- ==== Proof.LibRowMax.lean ====
/-
  A row's maximum read at a row, at the extended reals.

  The float maximum-reduction of an [a, b] array over its second axis, from the pattern of −∞, is at row r the fold of
  max from ⊥ over the b entries (r, j) of that row: for the vector unit's multi_reduction <maximumf>, and for the host's
  one-operand reduce with a maximum body from an initial value that denotes −∞. Both sides land on one and the same
  `Finset.fold` over the columns, so a kernel's and a reference's row maxima are compared entry by entry.
-/
import Idealize.ShloMosaic.PureOps.Ideal.Laws
import Idealize.ShloMosaic.Lib.ValueIdx

noncomputable section

namespace Cert.LibRowMax

open Idealize.ShloMosaic Idealize.ShloMosaic.ValueIdx

/-- The f32 pattern of −∞ denotes the bottom of the extended reals. -/
theorem negInf_f32 : Ideal.ofBits .f32 0xFF800000#32 = ⊥ := by simp [Ideal.ofBits, Ideal.ieee]

/-- The index (r, j) of an [a, b] array is the row index r with the column j inserted on the reduced axis. -/
theorem lift_row {a b : ℕ} (h : Shape.Reduces ⟨2, ![a, b]⟩ [1] ⟨1, ![a]⟩) (r : Fin a) (j : Fin b) :
    h.lift (ix1 r) j = ix2 r j := by
  funext d
  match d with
  | ⟨0, _⟩ => rfl
  | ⟨1, _⟩ => rfl

/-- The vector unit's maximum-reduction of an [a, b] vector over axis 1 from −∞, read at row r: the fold of max from ⊥
    over the row's entries. -/
theorem laneMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ src 0xFF800000#32 h hφ hacc (ix1 r)
      = (Finset.univ : Finset (Fin b)).fold max ⊥ (fun j => src (ix2 r j)) := by
  refine (Ideal.multiReduction_maximumf_single src 0xFF800000#32 h hφ hacc (ix1 r)).trans ?_
  show (Finset.univ : Finset (Fin b)).fold max (Ideal.ofBits .f32 0xFF800000#32) (src ∘ h.lift (ix1 r)) = _
  rw [negInf_f32]
  exact congrArg (fun f => Finset.fold max ⊥ f (Finset.univ : Finset (Fin b))) (funext fun j => congrArg src (lift_row h r j))

/-- The host's reduce with a maximum body over axis 1 of an [a, b] array, from an initial value that denotes −∞, read at
    row r: the same fold. -/
theorem hostRowMax_apply {a b : ℕ} {u : Shape} (x : (⟨2, ![a, b]⟩ : Shape).Idx → Ideal .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel)
    (hinit : init (Shape.Idx.first hu) = ⊥) (r : Fin a) :
    Host.reduce (FloatOps.maximumf (F := Ideal) (φ := .f32)) x init h' hu (ix1 r)
      = (Finset.univ : Finset (Fin b)).fold max ⊥ (fun j => x (ix2 r j)) := by
  refine (Host.reduce_eq_fold_single (FloatOps.maximumf (F := Ideal) (φ := .f32)) x init h' h hu (ix1 r)).trans ?_
  rw [hinit]
  show (Finset.univ : Finset (Fin b)).fold max ⊥ (x ∘ h.lift (ix1 r)) = _
  exact congrArg (fun f => Finset.fold max ⊥ f (Finset.univ : Finset (Fin b))) (funext fun j => congrArg x (lift_row h r j))

end Cert.LibRowMax

end
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.LibPlainDot.lean ====
/-
  A plain matrix product read at an index, at the ideal instance.

  For the dimension numbers "rows × contraction times contraction × columns" (`DotDims.plain M K N`) both the
  vector unit's matmul into a zero accumulator and the host's dot_general are, at output index (a, b), the sum over
  k of l (a, k) · r (k, b) on the extended reals. The sum over the one-axis contraction index is re-indexed by its
  one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx, l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.LibTransposedDot.lean ====
/-
  A matrix product whose right operand is contracted on its LAST axis, read at an index, at the ideal instance.

  For the dimension numbers "rows × contraction times columns × contraction" (`DotDims.transposedRhs M K N`: the
  product x · yᵀ written without a transpose) both the vector unit's matmul into a zero accumulator and the host's
  dot_general are, at output index (a, b), the sum over k of l (a, k) · r (b, k) on the extended reals. The sum over
  the one-axis contraction index is re-indexed by its one coordinate.
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

theorem lhs0 (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
theorem lhs1 (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q
theorem rhs0 (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl
theorem rhs1 (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The contraction sum of such a product at (a, b), over the coordinate `k : Fin K`. -/
theorem sum_transposedRhs (M K N : Nat) {φ₁ φ₂ : FTy} (l : FVec Ideal ⟨2, ![M, K]⟩ φ₁) (r : FVec Ideal ⟨2, ![N, K]⟩ φ₂)
    (a : Fin M) (b : Fin N) :
    ∑ k : (DotDims.transposedRhs M K N).contr.Idx,
        l ((DotDims.transposedRhs M K N).lhsIdx (ix2 a b) k) * r ((DotDims.transposedRhs M K N).rhsIdx (ix2 a b) k)
      = ∑ k : Fin K, l (ix2 a k) * r (ix2 b k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 a b) ((contrEquiv1 (DotDims.transposedRhs M K N) K rfl rfl).symm k) = ix2 a k :=
    funext fun d => Fin.ext (by
      match d with
      | ⟨0, _⟩ => exact lhs0 M K N _ _
      | ⟨1, _⟩ => exact (lhs1 M K N _ _).trans hk)
  have er : (DotDims.transposedRhs M K N).rhsIdx (ix2 a b) ((contrEquiv1 (DotDims.transposedRhs M K N) K rfl rfl).symm k) = ix2 b k :=
    funext fun d => Fin.ext (by
      match d with
      | ⟨0, _⟩ => exact rhs0 M K N _ _
      | ⟨1, _⟩ => exact (rhs1 M K N _ _).trans hk)
  rw [el, er]

/-- The vector unit's matmul into the zero accumulator, at (a, b). -/
theorem matmul_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    matmul D prec l r (constant ⟨2, ![M, N]⟩ .f32 0x00000000#32) (ix2 a b) = ∑ k : Fin K, l (ix2 a k) * r (ix2 b k) := by
  subst hD
  exact (Ideal.matmul_constant_zero_apply _ prec l r (ix2 a b)).trans (sum_transposedRhs M K N l r a b)

/-- The host's dot_general, at (a, b). -/
theorem dotGeneral_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    Host.dotGeneral (F := Ideal) D prec l r (ix2 a b) = ∑ k : Fin K, l (ix2 a k) * r (ix2 b k) := by
  subst hD
  simp only [Host.dotGeneral]
  exact (Ideal.dotGeneral_apply _ prec _ l r (ix2 a b)).trans (sum_transposedRhs M K N l r a b)

end Idealize.ShloMosaic.TransposedDot

end
-- ==== Proof.LibBlockCast.lean ====
/-
  A block of a rank-four array whose two leading axes have extent one, cast to the matrix it holds and back, read at
  coordinates: the [1, 1, a, b] → [a, b] cast at (p, q) is the block at (0, 0, p, q), and the [a, b] → [1, 1, a, b]
  cast at an index y is the matrix at (y 2, y 3). Row-major positions agree because the unit axes contribute nothing.
-/
import Idealize.ShloMosaic.Lib.Pipeline.Value
import Idealize.ShloMosaic.Lib.ValueIdx

namespace Idealize.ShloMosaic.BlockCast

open Idealize.ShloMosaic Idealize.ShloMosaic.ValueIdx

variable {α : Type}

/-- The matrix held by a [1, 1, a, b] block, at (p, q), is the block's entry (0, 0, p, q). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_two, Shape.rowMajor_val_four]
    show ((0 * 1 + 0) * a + p.val) * b + q.val = p.val * b + q.val
    simp)

/-- A matrix laid out as a [1, 1, a, b] block, at an index y, is the matrix's entry (y 2, y 3). -/
theorem shapeCast_ab_11ab_apply {a b : ℕ} (x : (⟨2, ![a, b]⟩ : Shape).Idx → α)
    (h : (⟨2, ![a, b]⟩ : Shape).ShapeCasts ⟨4, ![1, 1, a, b]⟩) (y : (⟨4, ![1, 1, a, b]⟩ : Shape).Idx) :
    shapeCast ⟨4, ![1, 1, a, b]⟩ x h y = x (ix2 (y 2) (y 3)) :=
  shapeCast_apply x h _ _ (by
    have h0 : (y 0).val < 1 := (y 0).isLt
    have h1 : (y 1).val < 1 := (y 1).isLt
    have e0 : (y 0).val = 0 := by omega
    have e1 : (y 1).val = 0 := by omega
    rw [Shape.rowMajor_val_two, Shape.rowMajor_val_four]
    show (y 2).val * b + (y 3).val = (((y 0).val * 1 + (y 1).val) * a + (y 2).val) * b + (y 3).val
    rw [e0, e1]
    simp)

end Idealize.ShloMosaic.BlockCast
-- ==== Proof.KernelRow.lean ====
/-
  What the kernel's body computes from its blocks, entry by entry, on the extended reals.

  At a grid point the body holds a block of 512 query rows, the head's 2048 key rows and value rows, and the
  512 × 2048 block of the mask. Entry (r, c) of its probability block is the softmax probability of column c for the
  row of masked scores  s(c') = -10000 where the mask entry (r, c') is zero, else Σ_d (q(r,d) · 1/8) · k(c',d)  —
  the contraction of the scaled queries with the keys over the last axis of both, then the row maximum, the
  exponentials of the differences, their row sum and the quotient. Entry (r, d) of its output block is
  Σ_c p(r, c) · v(c, d). Each step is read at an index by one lemma: the two contractions, the row maximum and the
  row sum as a fold and a sum over the 2048 columns, the column casts and broadcasts as re-indexings.
-/
import proofs.«172888_j61727269978516_2_alg».proof.Proof.Gen.KernelIdeal.Skeleton
import proofs.«172888_j61727269978516_2_alg».proof.Proof.AttnSpec
import proofs.«172888_j61727269978516_2_alg».proof.Proof.LibLane
import proofs.«172888_j61727269978516_2_alg».proof.Proof.LibRowMax
import proofs.«172888_j61727269978516_2_alg».proof.Proof.LibIndexRead
import proofs.«172888_j61727269978516_2_alg».proof.Proof.LibPlainDot
import proofs.«172888_j61727269978516_2_alg».proof.Proof.LibTransposedDot
import proofs.«172888_j61727269978516_2_alg».proof.Proof.LibBlockCast

noncomputable section

open scoped BigOperators

namespace Cert.KernelIdeal.Row

open Cert.KernelIdeal Cert.KernelIdeal.Gen Idealize.ShloMosaic Idealize.ShloMosaic.ValueIdx

/-! ## The softmax of a 512 × 2048 matrix of scores, row by row -/

/-- The row maxima, kept as a column and spread over the lanes, read at (r, c): the largest score of row r. -/
theorem rowMax_read (s : FVec Ideal S512x2048 .f32) (r : Fin 512) (c : Fin 2048) :
    broadcastTo S512x2048 (shapeCast S512x1 (multiReduction (F := Ideal) .maximumf [1] S512 s 0xFF800000#32 reduces_S512x2048_S512 (.inl rfl) rfl)
      shapeCasts_S512_S512x1) broadcasts_S512x1_S512x2048 (ix2 r c) = Cert.Attn.rowMax (fun c' => s (ix2 r c')) :=
  (RowRead.broadcastTo_a1_ab_apply _ _ r c).trans
    ((RowRead.shapeCast_a_a1_apply _ _ r (0 : Fin 1)).trans (Cert.LibRowMax.laneMax_apply s _ _ _ r))

/-- The row sums, kept as a column and spread over the lanes, read at (r, c): the sum of row r. -/
theorem rowSum_read (w : FVec Ideal S512x2048 .f32) (r : Fin 512) (c : Fin 2048) :
    broadcastTo S512x2048 (shapeCast S512x1 (multiReduction (F := Ideal) .add [1] S512 w 0x00000000#32 reduces_S512x2048_S512 (.inl rfl) rfl)
      shapeCasts_S512_S512x1) broadcasts_S512x1_S512x2048 (ix2 r c) = ∑ c' : Fin 2048, w (ix2 r c') :=
  (RowRead.broadcastTo_a1_ab_apply _ _ r c).trans
    ((RowRead.shapeCast_a_a1_apply _ _ r (0 : Fin 1)).trans (Cert.LibLane.laneSum_apply w _ _ _ r))

/-- The exponentials of the scores less their row maximum. -/
def weights (s : FVec Ideal S512x2048 .f32) : FVec Ideal S512x2048 .f32 :=
  exp (subf s (broadcastTo S512x2048 (shapeCast S512x1 (multiReduction (F := Ideal) .maximumf [1] S512 s 0xFF800000#32 reduces_S512x2048_S512 (.inl rfl) rfl)
    shapeCasts_S512_S512x1) broadcasts_S512x1_S512x2048))

theorem weights_apply (s : FVec Ideal S512x2048 .f32) (r : Fin 512) (c : Fin 2048) :
    weights s (ix2 r c) = Cert.Attn.weight (fun c' => s (ix2 r c')) c := by
  show Ideal.exp (s (ix2 r c) - broadcastTo S512x2048 (shapeCast S512x1 (multiReduction (F := Ideal) .maximumf [1] S512 s 0xFF800000#32 reduces_S512x2048_S512 (.inl rfl) rfl)
    shapeCasts_S512_S512x1) broadcasts_S512x1_S512x2048 (ix2 r c)) = _
  rw [rowMax_read s r c]
  rfl

/-- The weights over their row sums. -/
def softmax (s : FVec Ideal S512x2048 .f32) : FVec Ideal S512x2048 .f32 :=
  divf (weights s) (broadcastTo S512x2048 (shapeCast S512x1 (multiReduction (F := Ideal) .add [1] S512 (weights s) 0x00000000#32 reduces_S512x2048_S512 (.inl rfl) rfl)
    shapeCasts_S512_S512x1) broadcasts_S512x1_S512x2048)

theorem softmax_apply (s : FVec Ideal S512x2048 .f32) (r : Fin 512) (c : Fin 2048) :
    softmax s (ix2 r c) = Cert.Attn.prob (fun c' => s (ix2 r c')) c := by
  show Ideal.div (weights s (ix2 r c)) (broadcastTo S512x2048 (shapeCast S512x1 (multiReduction (F := Ideal) .add [1] S512 (weights s) 0x00000000#32 reduces_S512x2048_S512 (.inl rfl) rfl)
    shapeCasts_S512_S512x1) broadcasts_S512x1_S512x2048 (ix2 r c)) = _
  rw [rowSum_read (weights s) r c, weights_apply s r c]
  unfold Cert.Attn.prob
  exact congrArg _ (Finset.sum_congr rfl fun c' _ => weights_apply s r c')

/-! ## The masked scores of a block -/

/-- The masked score of block row r and key column c', with every query entry scaled by the eighth first. -/
def blockScore (x0 : S1x1x512x64.Idx → EReal) (x1 : S1x1x2048x64.Idx → EReal) (x3 : S1x1x512x2048.Idx → BitVec 32)
    (r : Fin 512) (c' : Fin 2048) : EReal :=
  Scalar.select (IntOp.cmpi .eq (x3 (ix4 (0 : Fin 1) (0 : Fin 1) r c')) 0#32) (Ideal.ofBits .f32 0xC61C4000#32)
    (∑ d : Fin 64, (x0 (ix4 (0 : Fin 1) (0 : Fin 1) r d) * Ideal.ofBits .f32 0x3E000000#32) * x1 (ix4 (0 : Fin 1) (0 : Fin 1) c' d))

/-- The masked score matrix of the body, as the body spells it. -/
def masked (x0 : Vec Ideal S1x1x512x64 .f32) (x1 : Vec Ideal S1x1x2048x64 .bf16) (x3 : Vec Ideal S1x1x512x2048 .i32) : FVec Ideal S512x2048 .f32 :=
  select (cmpi .eq (shapeCast S512x2048 x3 shapeCasts_S1x1x512x2048_S512x2048 : IVec S512x2048 32) (broadcast S512x2048 0#32))
    (broadcast S512x2048 (Scalar.ofBits (F := Ideal) .f32 0xC61C4000#32))
    (matmul dot_S512x64_S2048x64_S512x2048_1_1_0_0_n_n none
      (truncf .bf16 (mulf (shapeCast S512x64 x0 shapeCasts_S1x1x512x64_S512x64 : FVec Ideal S512x64 .f32) (broadcast S512x64 (Scalar.ofBits (F := Ideal) .f32 0x3E000000#32))) bitsLt_bf16_f32)
      (shapeCast S2048x64 x1 shapeCasts_S1x1x2048x64_S2048x64 : FVec Ideal S2048x64 .bf16) (constant S512x2048 .f32 0x00000000#32))

theorem masked_apply (x0 : Vec Ideal S1x1x512x64 .f32) (x1 : Vec Ideal S1x1x2048x64 .bf16) (x3 : Vec Ideal S1x1x512x2048 .i32)
    (r : Fin 512) (c : Fin 2048) : masked x0 x1 x3 (ix2 r c) = blockScore x0 x1 x3 r c := by
  show Scalar.select (IntOp.cmpi .eq ((shapeCast S512x2048 x3 shapeCasts_S1x1x512x2048_S512x2048 : IVec S512x2048 32) (ix2 r c)) 0#32) (Ideal.ofBits .f32 0xC61C4000#32)
    (matmul dot_S512x64_S2048x64_S512x2048_1_1_0_0_n_n none
      (truncf .bf16 (mulf (shapeCast S512x64 x0 shapeCasts_S1x1x512x64_S512x64 : FVec Ideal S512x64 .f32) (broadcast S512x64 (Scalar.ofBits (F := Ideal) .f32 0x3E000000#32))) bitsLt_bf16_f32)
      (shapeCast S2048x64 x1 shapeCasts_S1x1x2048x64_S2048x64 : FVec Ideal S2048x64 .bf16) (constant S512x2048 .f32 0x00000000#32) (ix2 r c)) = _
  rw [BlockCast.shapeCast_11ab_ab_apply x3 _ r c,
    TransposedDot.matmul_transposedRhs dot_S512x64_S2048x64_S512x2048_1_1_0_0_n_n rfl none _ _ r c]
  unfold blockScore
  refine congrArg _ (Finset.sum_congr rfl fun d _ => ?_)
  show (shapeCast S512x64 x0 shapeCasts_S1x1x512x64_S512x64 : FVec Ideal S512x64 .f32) (ix2 r d) * Ideal.ofBits .f32 0x3E000000#32
      * (shapeCast S2048x64 x1 shapeCasts_S1x1x2048x64_S2048x64 : FVec Ideal S2048x64 .bf16) (ix2 c d) = _
  rw [BlockCast.shapeCast_11ab_ab_apply x0 _ r d, BlockCast.shapeCast_11ab_ab_apply x1 _ c d]

/-! ## The body's two results -/

/-- The body's probability matrix is the row-wise softmax of its masked scores. -/
theorem pay3_eq (x0 : Vec Ideal S1x1x512x64 .f32) (x1 : Vec Ideal S1x1x2048x64 .bf16) (x3 : Vec Ideal S1x1x512x2048 .i32) :
    k0_pay3 (F := Ideal) x0 x1 x3 = softmax (masked x0 x1 x3) := rfl

/-- Entry (r, c) of the body's probability matrix. -/
theorem pay3_apply (x0 : Vec Ideal S1x1x512x64 .f32) (x1 : Vec Ideal S1x1x2048x64 .bf16) (x3 : Vec Ideal S1x1x512x2048 .i32)
    (r : Fin 512) (c : Fin 2048) :
    k0_pay3 (F := Ideal) x0 x1 x3 (ix2 r c) = Cert.Attn.prob (blockScore x0 x1 x3 r) c := by
  rw [pay3_eq, softmax_apply]
  exact congrArg (fun s => Cert.Attn.prob s c) (funext fun c' => masked_apply x0 x1 x3 r c')

/-- The probability block the body stores, at a block index y. -/
theorem pay4_apply (x0 : Vec Ideal S1x1x512x64 .f32) (x1 : Vec Ideal S1x1x2048x64 .bf16) (x3 : Vec Ideal S1x1x512x2048 .i32)
    (y : S1x1x512x2048.Idx) :
    k0_pay4 (F := Ideal) x0 x1 x3 y = Cert.Attn.prob (blockScore x0 x1 x3 (y 2)) (y 3) :=
  (BlockCast.shapeCast_ab_11ab_apply (k0_pay3 (F := Ideal) x0 x1 x3) shapeCasts_S512x2048_S1x1x512x2048 y).trans
    (pay3_apply x0 x1 x3 (y 2) (y 3))

/-- The output block the body stores, at a block index y: the probabilities of row y 2 against column y 3 of the values. -/
theorem pay1_apply (x0 : Vec Ideal S1x1x512x64 .f32) (x1 x2 : Vec Ideal S1x1x2048x64 .bf16) (x3 : Vec Ideal S1x1x512x2048 .i32)
    (y : S1x1x512x64.Idx) :
    k0_pay1 (F := Ideal) (k0_pay2 x2) (k0_pay5 x0 x1 x3) (constant S512x64 .f32 0x00000000#32) y
      = ∑ c : Fin 2048, Cert.Attn.prob (blockScore x0 x1 x3 (y 2)) c * x2 (ix4 (0 : Fin 1) (0 : Fin 1) c (y 3)) := by
  show shapeCast S1x1x512x64 (matmul dot_S512x2048_S2048x64_S512x64_1_0_0_1_n_n none (k0_pay5 (F := Ideal) x0 x1 x3) (k0_pay2 (F := Ideal) x2)
    (constant S512x64 .f32 0x00000000#32)) shapeCasts_S512x64_S1x1x512x64 y = _
  refine (BlockCast.shapeCast_ab_11ab_apply _ shapeCasts_S512x64_S1x1x512x64 y).trans ?_
  refine (PlainDot.matmul_plain dot_S512x2048_S2048x64_S512x64_1_0_0_1_n_n rfl none _ _ (y 2) (y 3)).trans ?_
  refine Finset.sum_congr rfl fun c _ => ?_
  show k0_pay3 (F := Ideal) x0 x1 x3 (ix2 (y 2) c) * (shapeCast S2048x64 x2 shapeCasts_S1x1x2048x64_S2048x64 : FVec Ideal S2048x64 .bf16) (ix2 c (y 3)) = _
  rw [pay3_apply x0 x1 x3 (y 2) c, BlockCast.shapeCast_11ab_ab_apply x2 _ c (y 3)]

end Cert.KernelIdeal.Row

end
-- ==== Proof.KernelArray.lean ====
/-
  From the kernel's blocks to its two whole result arrays.

  The grid has a point per (batch b, query tile qi, head h). At that point the query window holds rows
  512·qi … 512·qi + 511 of (b, h), the key and value windows the 2048 rows of (b, h), the mask window rows
  512·qi … of (b, 0), and the two result windows are written back at rows 512·qi … of (b, h). So what a point writes
  back is the block, at the point's position, of ONE function of the argument arrays — the specification's
  probabilities and output —, the blocks of the 128 points tile both result arrays, and each array ends holding that
  function. The keys and values reach the region through a change of float format, which is the identity on the
  extended reals.
-/
import proofs.«172888_j61727269978516_2_alg».proof.Proof.Gen.KernelIdeal.Value
import proofs.«172888_j61727269978516_2_alg».proof.Proof.KernelRow
import proofs.«172888_j61727269978516_2_alg».proof.Proof.AttnSpec
import Idealize.ShloMosaic.Lib.StableHlo.Run

set_option maxRecDepth 16384

noncomputable section

open scoped BigOperators

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-! ## The windows' positions at a point -/

/-- The printed index maps, decided over the 128 grid points: every window sits at the batch, head and query tile
    of the probability window, the key and value windows on all rows, the mask window on head 0. -/
theorem positions : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 4) = win0_5.index t (0 : Fin 4) ∧ win0_3.index t (1 : Fin 4) = 0
      ∧ win0_3.index t (2 : Fin 4) = win0_5.index t (2 : Fin 4) ∧ win0_3.index t (3 : Fin 4) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0)
    ∧ (win0_5.index t (0 : Fin 4) < 2 ∧ win0_5.index t (1 : Fin 4) < 16 ∧ win0_5.index t (2 : Fin 4) < 4 ∧ win0_5.index t (3 : Fin 4) = 0) :=
  (by decide +kernel : ∀ t : Fin grid0.N, _)

/-- Every (batch, head, query tile) is some point's position. -/
theorem positions_onto : ∀ (q0 : Fin 2) (q1 : Fin 16) (q2 : Fin 4), ∃ t : Fin cfg0.N, win0_5.index t = ![q0.val, q1.val, q2.val, 0] :=
  (by decide +kernel : ∀ (q0 : Fin 2) (q1 : Fin 16) (q2 : Fin 4), ∃ t : Fin grid0.N, win0_5.index t = ![q0.val, q1.val, q2.val, 0])

/-! ## The arrays as the region finds them -/

/-- The keys as the region finds them are the key argument: the change of format before the region is the identity. -/
theorem keys_eq (c : Dev nD) :
    (V m c main_v0 : S2x16x2048x64.Idx → EReal) = (m ((c : Thread nD τ).loc main_arg1) : S2x16x2048x64.Idx → EReal) := by
  dsimp only [V, hostOps0]; after_results; rfl

/-- The values as the region finds them are the value argument. -/
theorem values_eq (c : Dev nD) :
    (V m c main_v1 : S2x16x2048x64.Idx → EReal) = (m ((c : Thread nD τ).loc main_arg2) : S2x16x2048x64.Idx → EReal) := by
  dsimp only [V, hostOps0]; after_results; rfl

/-! ## The input blocks of a point, read at coordinates -/

/-- The query block at a point: row p of the block is row 512·qi + p of (b, h). -/
theorem query_read (c : Dev nD) (t : Fin cfg0.N) (p : Fin 512) (d : Fin 64) (b : Fin 2) (h : Fin 16) (r : Fin 2048)
    (hb : b.val = win0_5.index t (0 : Fin 4)) (hh : h.val = win0_5.index t (1 : Fin 4))
    (hr : r.val = win0_5.index t (2 : Fin 4) * 512 + p.val) :
    iblk m c 0 t (ix4 (0 : Fin 1) (0 : Fin 1) p d) = (m ((c : Thread nD τ).loc main_arg0) : S2x16x2048x64.Idx → EReal) (ix4 b h r d) := by
  show V m c main_arg0 (((cfg0.win 0).blk t).view.emb (ix4 (0 : Fin 1) (0 : Fin 1) p d)) = _
  rw [V_main_arg0]
  refine congrArg (m ((c : Thread nD τ).loc main_arg0)) (funext fun a => Fin.ext ?_)
  obtain ⟨⟨e0, e1, e2, e3⟩, -⟩ := positions t
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 512 + 1 * p.val = r.val; omega
  | ⟨3, _⟩ => show win0_0.index t (3 : Fin 4) * 64 + 1 * d.val = d.val; omega

/-- The key block at a point: all 2048 key rows of (b, h). -/
theorem key_read (c : Dev nD) (t : Fin cfg0.N) (k : Fin 2048) (d : Fin 64) (b : Fin 2) (h : Fin 16)
    (hb : b.val = win0_5.index t (0 : Fin 4)) (hh : h.val = win0_5.index t (1 : Fin 4)) :
    iblk m c 1 t (ix4 (0 : Fin 1) (0 : Fin 1) k d) = (m ((c : Thread nD τ).loc main_arg1) : S2x16x2048x64.Idx → EReal) (ix4 b h k d) := by
  show (V m c main_v0 : S2x16x2048x64.Idx → EReal) (((cfg0.win 1).blk t).view.emb (ix4 (0 : Fin 1) (0 : Fin 1) k d)) = _
  rw [keys_eq]
  refine congrArg (m ((c : Thread nD τ).loc main_arg1) : S2x16x2048x64.Idx → EReal) (funext fun a => Fin.ext ?_)
  obtain ⟨-, ⟨e0, e1, e2, e3⟩, -⟩ := positions t
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 2048 + 1 * k.val = k.val; omega
  | ⟨3, _⟩ => show win0_1.index t (3 : Fin 4) * 64 + 1 * d.val = d.val; omega

/-- The value block at a point: all 2048 value rows of (b, h). -/
theorem value_read (c : Dev nD) (t : Fin cfg0.N) (k : Fin 2048) (d : Fin 64) (b : Fin 2) (h : Fin 16)
    (hb : b.val = win0_5.index t (0 : Fin 4)) (hh : h.val = win0_5.index t (1 : Fin 4)) :
    iblk m c 2 t (ix4 (0 : Fin 1) (0 : Fin 1) k d) = (m ((c : Thread nD τ).loc main_arg2) : S2x16x2048x64.Idx → EReal) (ix4 b h k d) := by
  show (V m c main_v1 : S2x16x2048x64.Idx → EReal) (((cfg0.win 2).blk t).view.emb (ix4 (0 : Fin 1) (0 : Fin 1) k d)) = _
  rw [values_eq]
  refine congrArg (m ((c : Thread nD τ).loc main_arg2) : S2x16x2048x64.Idx → EReal) (funext fun a => Fin.ext ?_)
  obtain ⟨-, -, ⟨e0, e1, e2, e3⟩, -⟩ := positions t
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 2048 + 1 * k.val = k.val; omega
  | ⟨3, _⟩ => show win0_2.index t (3 : Fin 4) * 64 + 1 * d.val = d.val; omega

/-- The mask block at a point: row p of the block is row 512·qi + p of (b, 0). -/
theorem mask_read (c : Dev nD) (t : Fin cfg0.N) (p : Fin 512) (k : Fin 2048) (b : Fin 2) (r : Fin 2048)
    (hb : b.val = win0_5.index t (0 : Fin 4)) (hr : r.val = win0_5.index t (2 : Fin 4) * 512 + p.val) :
    iblk m c 3 t (ix4 (0 : Fin 1) (0 : Fin 1) p k) = (m ((c : Thread nD τ).loc main_arg3) : S2x1x2048x2048.Idx → BitVec 32) (ix4 b (0 : Fin 1) r k) := by
  show V m c main_arg3 (((cfg0.win 3).blk t).view.emb (ix4 (0 : Fin 1) (0 : Fin 1) p k)) = _
  rw [V_main_arg3]
  refine congrArg (m ((c : Thread nD τ).loc main_arg3)) (funext fun a => Fin.ext ?_)
  obtain ⟨-, -, -, ⟨e0, e1, e2, e3⟩, -⟩ := positions t
  match a with
  | ⟨0, _⟩ => show win0_3.index t (0 : Fin 4) * 1 + 1 * 0 = b.val; omega
  | ⟨1, _⟩ => show win0_3.index t (1 : Fin 4) * 1 + 1 * 0 = 0; omega
  | ⟨2, _⟩ => show win0_3.index t (2 : Fin 4) * 512 + 1 * p.val = r.val; omega
  | ⟨3, _⟩ => show win0_3.index t (3 : Fin 4) * 2048 + 1 * k.val = k.val; omega

/-- The masked scores of block row p at a point are the specification's scores of row 512·qi + p of (b, h). -/
theorem scores_at (c : Dev nD) (t : Fin cfg0.N) (p : Fin 512) (b : Fin 2) (h : Fin 16) (r : Fin 2048)
    (hb : b.val = win0_5.index t (0 : Fin 4)) (hh : h.val = win0_5.index t (1 : Fin 4))
    (hr : r.val = win0_5.index t (2 : Fin 4) * 512 + p.val) :
    Row.blockScore (iblk m c 0 t) (iblk m c 1 t) (iblk m c 3 t) p
      = Cert.Attn.score (m ((c : Thread nD τ).loc main_arg0)) (m ((c : Thread nD τ).loc main_arg1)) (m ((c : Thread nD τ).loc main_arg3)) b h r := by
  rw [← Cert.Attn.scoreQ_eq_score]
  funext k
  unfold Row.blockScore Cert.Attn.scoreQ
  rw [mask_read m c t p k b r hb hr]
  refine congrArg _ (Finset.sum_congr rfl fun d _ => ?_)
  rw [query_read m c t p d b h r hb hh hr, key_read m c t k d b h hb hh]

/-! ## What a point writes back -/

/-- The probability block a point writes back is the specification's probabilities read through the point's block. -/
theorem flushed5_eq (c : Dev nD) (t : Fin cfg0.N) :
    (dats m 0 c).flushed 5 t = ((cfg0.win 5).blk t).view.read (Elt Ideal)
      (Cert.Attn.attn (m ((c : Thread nD τ).loc main_arg0)) (m ((c : Thread nD τ).loc main_arg1)) (m ((c : Thread nD τ).loc main_arg3))) := by
  rw [Value.flushed5]
  unfold out0_5
  rw [View.canon_unit_zero zero_offsets]
  simp only [View.ld_unit_zero (S := S1x1x512x64) zero_offsets, View.ld_unit_zero (S := S1x1x2048x64) zero_offsets,
    View.ld_unit_zero (S := S1x1x512x2048) zero_offsets]
  funext y
  obtain ⟨y0, y1, y2, y3, rfl⟩ : ∃ (y0 : Fin 1) (y1 : Fin 1) (y2 : Fin 512) (y3 : Fin 2048), y = ix4 y0 y1 y2 y3 :=
    ⟨y 0, y 1, y 2, y 3, eq_ix4 y⟩
  obtain ⟨-, -, -, -, -, ⟨l0, l1, l2, l3⟩⟩ := positions t
  have hE : ((cfg0.win 5).blk t).view.emb (ix4 y0 y1 y2 y3)
      = ix4 (⟨win0_5.index t (0 : Fin 4), l0⟩ : Fin 2) (⟨win0_5.index t (1 : Fin 4), l1⟩ : Fin 16)
          (⟨win0_5.index t (2 : Fin 4) * 512 + y2.val, by omega⟩ : Fin 2048) y3 :=
    funext fun a => Fin.ext (by
      match a with
      | ⟨0, _⟩ => show win0_5.index t (0 : Fin 4) * 1 + 1 * y0.val = win0_5.index t (0 : Fin 4); omega
      | ⟨1, _⟩ => show win0_5.index t (1 : Fin 4) * 1 + 1 * y1.val = win0_5.index t (1 : Fin 4); omega
      | ⟨2, _⟩ => show win0_5.index t (2 : Fin 4) * 512 + 1 * y2.val = win0_5.index t (2 : Fin 4) * 512 + y2.val; omega
      | ⟨3, _⟩ => show win0_5.index t (3 : Fin 4) * 2048 + 1 * y3.val = y3.val; omega)
  show k0_pay4 (F := Ideal) (iblk m c 0 t) (iblk m c 1 t) (iblk m c 3 t) (ix4 y0 y1 y2 y3)
    = Cert.Attn.attn (m ((c : Thread nD τ).loc main_arg0)) (m ((c : Thread nD τ).loc main_arg1)) (m ((c : Thread nD τ).loc main_arg3))
        (((cfg0.win 5).blk t).view.emb (ix4 y0 y1 y2 y3))
  rw [hE]
  refine (Row.pay4_apply _ _ _ (ix4 y0 y1 y2 y3)).trans ?_
  show Cert.Attn.prob (Row.blockScore (iblk m c 0 t) (iblk m c 1 t) (iblk m c 3 t) y2) y3 = Cert.Attn.prob _ y3
  rw [scores_at m c t y2 (⟨win0_5.index t (0 : Fin 4), l0⟩ : Fin 2) (⟨win0_5.index t (1 : Fin 4), l1⟩ : Fin 16)
    (⟨win0_5.index t (2 : Fin 4) * 512 + y2.val, by omega⟩ : Fin 2048) rfl rfl rfl]

/-- The output block a point writes back is the specification's output read through the point's block. -/
theorem flushed4_eq (c : Dev nD) (t : Fin cfg0.N) :
    (dats m 0 c).flushed 4 t = ((cfg0.win 4).blk t).view.read (Elt Ideal)
      (Cert.Attn.out (m ((c : Thread nD τ).loc main_arg0)) (m ((c : Thread nD τ).loc main_arg1)) (m ((c : Thread nD τ).loc main_arg2))
        (m ((c : Thread nD τ).loc main_arg3))) := by
  rw [Value.flushed4]
  unfold out0_4
  rw [View.canon_unit_zero zero_offsets]
  simp only [View.ld_unit_zero (S := S1x1x512x64) zero_offsets, View.ld_unit_zero (S := S1x1x2048x64) zero_offsets,
    View.ld_unit_zero (S := S1x1x512x2048) zero_offsets]
  funext y
  obtain ⟨y0, y1, y2, y3, rfl⟩ : ∃ (y0 : Fin 1) (y1 : Fin 1) (y2 : Fin 512) (y3 : Fin 64), y = ix4 y0 y1 y2 y3 :=
    ⟨y 0, y 1, y 2, y 3, eq_ix4 y⟩
  obtain ⟨-, -, -, -, ⟨e0, e1, e2, e3⟩, ⟨l0, l1, l2, l3⟩⟩ := positions t
  have hE : ((cfg0.win 4).blk t).view.emb (ix4 y0 y1 y2 y3)
      = ix4 (⟨win0_5.index t (0 : Fin 4), l0⟩ : Fin 2) (⟨win0_5.index t (1 : Fin 4), l1⟩ : Fin 16)
          (⟨win0_5.index t (2 : Fin 4) * 512 + y2.val, by omega⟩ : Fin 2048) y3 :=
    funext fun a => Fin.ext (by
      match a with
      | ⟨0, _⟩ => show win0_4.index t (0 : Fin 4) * 1 + 1 * y0.val = win0_5.index t (0 : Fin 4); omega
      | ⟨1, _⟩ => show win0_4.index t (1 : Fin 4) * 1 + 1 * y1.val = win0_5.index t (1 : Fin 4); omega
      | ⟨2, _⟩ => show win0_4.index t (2 : Fin 4) * 512 + 1 * y2.val = win0_5.index t (2 : Fin 4) * 512 + y2.val; omega
      | ⟨3, _⟩ => show win0_4.index t (3 : Fin 4) * 64 + 1 * y3.val = y3.val; omega)
  show k0_pay1 (F := Ideal) (k0_pay2 (iblk m c 2 t)) (k0_pay5 (iblk m c 0 t) (iblk m c 1 t) (iblk m c 3 t)) (constant S512x64 .f32 0x00000000#32)
      (ix4 y0 y1 y2 y3)
    = Cert.Attn.out (m ((c : Thread nD τ).loc main_arg0)) (m ((c : Thread nD τ).loc main_arg1)) (m ((c : Thread nD τ).loc main_arg2))
        (m ((c : Thread nD τ).loc main_arg3)) (((cfg0.win 4).blk t).view.emb (ix4 y0 y1 y2 y3))
  rw [hE]
  refine (Row.pay1_apply _ _ _ _ (ix4 y0 y1 y2 y3)).trans ?_
  show ∑ k : Fin 2048, Cert.Attn.prob (Row.blockScore (iblk m c 0 t) (iblk m c 1 t) (iblk m c 3 t) y2) k
      * iblk m c 2 t (ix4 (0 : Fin 1) (0 : Fin 1) k y3) = ∑ k : Fin 2048, Cert.Attn.prob _ k * _
  rw [scores_at m c t y2 (⟨win0_5.index t (0 : Fin 4), l0⟩ : Fin 2) (⟨win0_5.index t (1 : Fin 4), l1⟩ : Fin 16)
    (⟨win0_5.index t (2 : Fin 4) * 512 + y2.val, by omega⟩ : Fin 2048) rfl rfl rfl]
  exact Finset.sum_congr rfl fun k _ => congrArg _ (value_read m c t k y3 _ _ rfl rfl)

/-! ## The cover -/

/-- An index of the probability array is in point t's block iff each coordinate is in the block's range. -/
theorem mem_blk5 (t : Fin cfg0.N) (i : S2x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v2_1).slice (win0_5.rect t)).set ↔ _
  rw [View.set_slice_whole, Rect.mem_set_unit]
  exact Iff.rfl

theorem mem_blk4 (t : Fin cfg0.N) (i : S2x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v2_0).slice (win0_4.rect t)).set ↔ _
  rw [View.set_slice_whole, Rect.mem_set_unit]
  exact Iff.rfl

/-- Every index of the probability array lies in the block of the point at its batch, head and query tile. -/
theorem cover5 (i : S2x16x2048x2048.Idx) : ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := positions_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every index of the output array lies in the block of the point at its batch, head and query tile. -/
theorem cover4 (i : S2x16x2048x64.Idx) : ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := positions_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  obtain ⟨-, -, -, -, ⟨e0, e1, e2, e3⟩, -⟩ := positions t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The two arrays after the run, and the run -/

theorem final5 (c : Dev nD) : (dats m 0 c).arrAt 5 cfg0.N
    = Cert.Attn.attn (m ((c : Thread nD τ).loc main_arg0)) (m ((c : Thread nD τ).loc main_arg1)) (m ((c : Thread nD τ).loc main_arg3)) :=
  (dats m 0 c).arrAt_eq_of_cover 5 _ (fun t _ => flushed5_eq m c t) cover5

theorem final4 (c : Dev nD) : (dats m 0 c).arrAt 4 cfg0.N
    = Cert.Attn.out (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed4_eq m c t) cover4

/-- Every weakly fair execution of the kernel's program ends with the output array at the specification's output and
    the probability array at the specification's probabilities of the arguments, the arguments unchanged. -/
theorem run : θ_run defs (onTc (τ := τ) (main (F := Ideal))) ⟨m, fun _ => 0, ρ⟩ fun r => ∀ c : Dev nD,
      r.2.mem ((c : Thread nD τ).loc main_v2_0)
        = Cert.Attn.out (m ((c : Thread nD τ).loc main_arg0)) (m ((c : Thread nD τ).loc main_arg1)) (m ((c : Thread nD τ).loc main_arg2))
            (m ((c : Thread nD τ).loc main_arg3))
      ∧ r.2.mem ((c : Thread nD τ).loc main_v2_1)
        = Cert.Attn.attn (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Whole

end
-- ==== Proof.LibLastAxisMax.lean ====
/-
  The host's maximum over the LAST axis of a rank-four array, read at an index, at the extended reals.

  A one-operand reduce with a maximum body over axis 3 of an [a, b, c, d] array, from an initial value that denotes −∞,
  is at (p, q, r) the fold of max from ⊥ over the d entries (p, q, r, j) — the same `Finset.fold` a row maximum of a
  matrix lands on, so a batched row maximum is compared with a matrix's row maximum entry by entry.
-/
import Idealize.ShloMosaic.PureOps.Ideal.Laws
import Idealize.ShloMosaic.Lib.ValueIdx

noncomputable section

namespace Idealize.ShloMosaic.LastAxisMax

open Idealize.ShloMosaic Idealize.ShloMosaic.ValueIdx

/-- The index (p, q, r, j) is the index (p, q, r) with j inserted on the reduced last axis. -/
theorem lift_last {a b c d : ℕ} (h : Shape.Reduces ⟨4, ![a, b, c, d]⟩ [3] ⟨3, ![a, b, c]⟩) (p : Fin a) (q : Fin b) (r : Fin c)
    (j : Fin d) : h.lift (ix3 p q r) j = ix4 p q r j := by
  funext e
  match e with
  | ⟨0, _⟩ => rfl
  | ⟨1, _⟩ => rfl
  | ⟨2, _⟩ => rfl
  | ⟨3, _⟩ => rfl

/-- The host's reduce with a maximum body over the last axis, from an initial value that denotes −∞, read at (p, q, r). -/
theorem hostMax_apply {a b c d : ℕ} {u : Shape} (x : (⟨4, ![a, b, c, d]⟩ : Shape).Idx → Ideal .f32) (init : u.Idx → Ideal .f32)
    (h' : Shape.ReducesTo ⟨4, ![a, b, c, d]⟩ [3] ⟨3, ![a, b, c]⟩) (h : Shape.Reduces ⟨4, ![a, b, c, d]⟩ [3] ⟨3, ![a, b, c]⟩)
    (hu : 0 < u.numel) (hinit : init (Shape.Idx.first hu) = ⊥) (p : Fin a) (q : Fin b) (r : Fin c) :
    Host.reduce (FloatOps.maximumf (F := Ideal) (φ := .f32)) x init h' hu (ix3 p q r)
      = (Finset.univ : Finset (Fin d)).fold max ⊥ (fun j => x (ix4 p q r j)) := by
  refine (Host.reduce_eq_fold_single (FloatOps.maximumf (F := Ideal) (φ := .f32)) x init h' h hu (ix3 p q r)).trans ?_
  rw [hinit]
  show (Finset.univ : Finset (Fin d)).fold max ⊥ (x ∘ h.lift (ix3 p q r)) = _
  exact congrArg (fun f => Finset.fold max ⊥ f (Finset.univ : Finset (Fin d))) (funext fun j => congrArg x (lift_last h p q r j))

end Idealize.ShloMosaic.LastAxisMax

end
-- ==== Proof.RefRow.lean ====
/-
  The reference's two results are the attention probabilities and the attention output of the specification.

  Read one operation at a time at an index (b, h, r, c): the masked score is the whole inner product of query row r
  and key row c times 1 / √64 — which is the eighth —, or -10000 where the mask entry (b, 0, r, c) is zero; the row
  maximum is the fold of max over the 2048 scores of the row (a further maximum with −∞ changes nothing); the weights
  are the exponentials of the differences, the row sum starts from zero, and the probability is the quotient. The
  output contracts the probabilities of a row with a column of the values.
-/
import proofs.«172888_j61727269978516_2_alg».proof.Proof.Gen.ReferenceIdeal.Read
import proofs.«172888_j61727269978516_2_alg».proof.Proof.AttnSpec
import proofs.«172888_j61727269978516_2_alg».proof.Proof.LibRowMax
import proofs.«172888_j61727269978516_2_alg».proof.Proof.LibLastAxisMax

noncomputable section

open scoped BigOperators

namespace Cert.ReferenceIdeal.Row

open Cert.ReferenceIdeal Cert.ReferenceIdeal.Read Idealize.ShloMosaic Idealize.ShloMosaic.ValueIdx

variable (x0 x1 x2 : (⟨S2x16x2048x64, .f32⟩ : BufTy).Contents (Elt Ideal)) (x3 : (⟨S2x1x2048x2048, .i32⟩ : BufTy).Contents (Elt Ideal))

/-- The scale the reference computes, one over the square root of 64, is the eighth. -/
theorem scale_read (i : S2x16x2048x2048.Idx) : val_main_v3 (F := Ideal) i = Ideal.ofBits .f32 0x3E000000#32 := by
  rw [val_main_v3_apply]
  exact Cert.Attn.one_div_sqrt_64

/-- The masked score at (b, h, r, c). -/
theorem score_read (b : Fin 2) (h : Fin 16) (r c : Fin 2048) :
    val_main_v7 (F := Ideal) x0 x1 x3 (ix4 b h r c) = Cert.Attn.score x0 x1 x3 b h r c := by
  rw [val_main_v7_apply, val_main_call0_v0_apply, val_main_v6_apply, val_main_v5_apply, val_main_call0_v1_apply,
    val_main_v4_apply, val_main_v2_apply, scale_read]
  have e0 : idx_main_call0_v0 (ix4 b h r c) = ix4 b (0 : Fin 1) r c :=
    funext fun a => Fin.ext (by match a with | ⟨0, _⟩ => rfl | ⟨1, _⟩ => rfl | ⟨2, _⟩ => rfl | ⟨3, _⟩ => rfl)
  have el : ∀ k : Fin 64, lidx_main_v2 (ix4 b h r c) k = ix4 b h r k := fun k =>
    funext fun a => Fin.ext (by match a with | ⟨0, _⟩ => rfl | ⟨1, _⟩ => rfl | ⟨2, _⟩ => rfl | ⟨3, _⟩ => rfl)
  have er : ∀ k : Fin 64, ridx_main_v2 (ix4 b h r c) k = ix4 b h c k := fun k =>
    funext fun a => Fin.ext (by match a with | ⟨0, _⟩ => rfl | ⟨1, _⟩ => rfl | ⟨2, _⟩ => rfl | ⟨3, _⟩ => rfl)
  simp only [e0, el, er]
  rfl

/-- The row maximum at (b, h, r): the largest masked score of the row. -/
theorem max_read (b : Fin 2) (h : Fin 16) (r : Fin 2048) :
    val_main_v10 (F := Ideal) x0 x1 x3 (ix3 b h r) = Cert.Attn.rowMax (fun c => val_main_v7 (F := Ideal) x0 x1 x3 (ix4 b h r c)) := by
  rw [val_main_v10_apply, val_main_v9_apply]
  show max (Ideal.ofBits .f32 0xFF800000#32) (val_main_v8 (F := Ideal) x0 x1 x3 (ix3 b h r)) = _
  rw [Cert.LibRowMax.negInf_f32, max_eq_right bot_le]
  unfold val_main_v8
  exact LastAxisMax.hostMax_apply _ _ _ (by decide) _ Cert.LibRowMax.negInf_f32 b h r

/-- The weight at (b, h, r, c). -/
theorem weight_read (b : Fin 2) (h : Fin 16) (r c : Fin 2048) :
    val_main_v14 (F := Ideal) x0 x1 x3 (ix4 b h r c) = Cert.Attn.weight (fun c' => val_main_v7 (F := Ideal) x0 x1 x3 (ix4 b h r c')) c := by
  rw [val_main_v14_apply, val_main_v13_apply, val_main_v12_apply, val_main_v11_apply]
  have e : idx_main_v11 (idx_main_v12 (ix4 b h r c)) = ix3 b h r :=
    funext fun a => Fin.ext (by match a with | ⟨0, _⟩ => rfl | ⟨1, _⟩ => rfl | ⟨2, _⟩ => rfl)
  rw [e, max_read]
  rfl

/-- The probability at (b, h, r, c). -/
theorem prob_read (b : Fin 2) (h : Fin 16) (r c : Fin 2048) :
    val_main_v18 (F := Ideal) x0 x1 x3 (ix4 b h r c) = Cert.Attn.prob (Cert.Attn.score x0 x1 x3 b h r) c := by
  rw [val_main_v18_apply, val_main_v17_apply, val_main_v16_apply]
  have e : idx_main_v16 (idx_main_v17 (ix4 b h r c)) = ix3 b h r :=
    funext fun a => Fin.ext (by match a with | ⟨0, _⟩ => rfl | ⟨1, _⟩ => rfl | ⟨2, _⟩ => rfl)
  have ek : ∀ k : Fin 2048, idx_main_v15 (ix3 b h r) k = ix4 b h r k := fun k =>
    funext fun a => Fin.ext (by match a with | ⟨0, _⟩ => rfl | ⟨1, _⟩ => rfl | ⟨2, _⟩ => rfl | ⟨3, _⟩ => rfl)
  rw [e, val_main_v15_apply]
  show Ideal.div (val_main_v14 (F := Ideal) x0 x1 x3 (ix4 b h r c))
    (Ideal.ofBits .f32 0x00000000#32 + ∑ k : Fin 2048, val_main_v14 (F := Ideal) x0 x1 x3 (idx_main_v15 (ix3 b h r) k)) = _
  rw [Ideal.ofBits_zero_f32, zero_add]
  simp only [ek, weight_read]
  have es : (fun c' => val_main_v7 (F := Ideal) x0 x1 x3 (ix4 b h r c')) = Cert.Attn.score x0 x1 x3 b h r :=
    funext fun c' => score_read x0 x1 x3 b h r c'
  rw [es]
  rfl

/-- The reference's second result is the specification's probabilities. -/
theorem attn_eq : val_main_v18 (F := Ideal) x0 x1 x3 = Cert.Attn.attn x0 x1 x3 := by
  funext i
  obtain ⟨b, h, r, c, rfl⟩ : ∃ (b : Fin 2) (h : Fin 16) (r c : Fin 2048), i = ix4 b h r c := ⟨i 0, i 1, i 2, i 3, eq_ix4 i⟩
  exact prob_read x0 x1 x3 b h r c

/-- The reference's first result is the specification's output. -/
theorem out_eq : val_main_v19 (F := Ideal) x0 x1 x2 x3 = Cert.Attn.out x0 x1 x2 x3 := by
  funext i
  obtain ⟨b, h, r, d, rfl⟩ : ∃ (b : Fin 2) (h : Fin 16) (r : Fin 2048) (d : Fin 64), i = ix4 b h r d := ⟨i 0, i 1, i 2, i 3, eq_ix4 i⟩
  rw [val_main_v19_apply]
  have el : ∀ k : Fin 2048, lidx_main_v19 (ix4 b h r d) k = ix4 b h r k := fun k =>
    funext fun a => Fin.ext (by match a with | ⟨0, _⟩ => rfl | ⟨1, _⟩ => rfl | ⟨2, _⟩ => rfl | ⟨3, _⟩ => rfl)
  have er : ∀ k : Fin 2048, ridx_main_v19 (ix4 b h r d) k = ix4 b h k d := fun k =>
    funext fun a => Fin.ext (by match a with | ⟨0, _⟩ => rfl | ⟨1, _⟩ => rfl | ⟨2, _⟩ => rfl | ⟨3, _⟩ => rfl)
  simp only [el, er, prob_read]
  rfl

end Cert.ReferenceIdeal.Row

end
-- ==== Proof.lean ====
/-
  Masked scaled dot-product attention over [2, 16, 2048, 64] queries, keys and values: a kernel that works on one
  (batch, query tile of 512 rows, head) at a time against the whole-array reference, equal on the extended reals.

  Both programs return the output Σ_c p(b,h,r,c) · v(b,h,c,d) and the probabilities p, the row-wise softmax of the
  masked scores (Proof/AttnSpec.lean). The kernel multiplies every query entry by 1/8 before the inner product with a
  key row; the reference multiplies the inner product by 1/√64. √64 is 8 exactly, and a nonnegative finite factor
  moves out of a finite sum of extended reals, so the masked scores agree at every index and with them everything
  computed from them: the same maximum, exponentials, sum, quotient and contraction with the values on both sides.
  Nothing in the argument uses that the inputs are finite.

  The three frames are the generated ones (the reference's is its generated run with the results dropped);
  the kernel's idealization rewrote no operation, so `preserves` asks nothing. For `algebraic`:
  Proof/KernelRow.lean reads the kernel body's two stored blocks entry by entry, Proof/KernelArray.lean places the
  blocks of the 128 grid points in the two result arrays, Proof/RefRow.lean reads the reference's two results entry by
  entry, and below the two runs are set side by side at the same two functions of the arguments.
-/
import proofs.«172888_j61727269978516_2_alg».proof.Defs
import proofs.«172888_j61727269978516_2_alg».proof.Proof.Gen.Kernel
import proofs.«172888_j61727269978516_2_alg».proof.Proof.Gen.Kernel.Frame
import proofs.«172888_j61727269978516_2_alg».proof.Proof.Gen.KernelIdeal
import proofs.«172888_j61727269978516_2_alg».proof.Proof.Gen.KernelIdeal.Frame
import proofs.«172888_j61727269978516_2_alg».proof.Proof.Gen.KernelIdeal.Value
import proofs.«172888_j61727269978516_2_alg».proof.Proof.Gen.ReferenceIdeal
import proofs.«172888_j61727269978516_2_alg».proof.Proof.Gen.ReferenceIdeal.Run
import proofs.«172888_j61727269978516_2_alg».proof.Proof.Gen.ReferenceIdeal.Read
import proofs.«172888_j61727269978516_2_alg».proof.Proof.Gen.Pre_finite_inputs
import proofs.«172888_j61727269978516_2_alg».proof.Proof.KernelArray
import proofs.«172888_j61727269978516_2_alg».proof.Proof.RefRow
import Idealize.ShloMosaic.Adequacy
import Idealize.ShloMosaic.Init

noncomputable section

namespace Cert.Proof

open Idealize.ShloMosaic Idealize.ShloMosaic.TcCoe Idealize.SL.Sem

/-- The kernel's program as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the four arguments both programs end with the specification's output and
    probabilities of those arguments: the kernel's arrays block by block, the reference's operation by operation. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v19_eq, Cert.ReferenceIdeal.Row.out_eq,
      (hagree c).1, (hagree c).2.1, (hagree c).2.2.1, (hagree c).2.2.2]
  · rw [(h c).2.1, Cert.ReferenceIdeal.Read.val_main_v18_eq, Cert.ReferenceIdeal.Row.attn_eq,
      (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
